-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S9600x128 : Shape := ⟨2, ![9600, 128]⟩
abbrev S9600x16 : Shape := ⟨2, ![9600, 16]⟩
abbrev S_ : Shape := ⟨0, ![]⟩

class Facts : Prop where
  bcast_S_S9600x128 : S_.BroadcastsInDim S9600x128 (![] : Fin 0 → Fin S9600x128.rank)
  reducesTo_S9600x128_S_d0_1 : S9600x128.ReducesTo [0, 1] S_
  h_S_ : 0 < S_.numel
  bcast_S_S9600x16 : S_.BroadcastsInDim S9600x16 (![] : Fin 0 → Fin S9600x16.rank)
  reducesTo_S9600x16_S_d0_1 : S9600x16.ReducesTo [0, 1] S_

variable [Facts]

def fn {F : FTy → Type} [FloatOps F] (main_arg0 : FVec F S9600x128 .f32) (main_arg1 : FVec F S9600x16 .f32) : IVec S_ 1 :=
  let main_v0 : FVec F S9600x128 .f32 := Host.absf main_arg0
  let main_cst : FVec F S_ .f32 := constant S_ .f32 0x7F800000#32
  let main_v1 : FVec F S9600x128 .f32 := broadcastInDim S9600x128 ![] bcast_S_S9600x128 main_cst
  let main_v2 : IVec S9600x128 1 := cmpf .olt main_v0 main_v1
  let main_c : IVec S_ 1 := constantI S_ 1 1#1
  let main_v3 : IVec S_ 1 := (fun x v => Host.reduce IntOp.andi x v reducesTo_S9600x128_S_d0_1 h_S_) main_v2 main_c
  let main_v4 : FVec F S9600x16 .f32 := Host.absf main_arg1
  let main_cst_0 : FVec F S_ .f32 := constant S_ .f32 0x7F800000#32
  let main_v5 : FVec F S9600x16 .f32 := broadcastInDim S9600x16 ![] bcast_S_S9600x16 main_cst_0
  let main_v6 : IVec S9600x16 1 := cmpf .olt main_v4 main_v5
  let main_c_1 : IVec S_ 1 := constantI S_ 1 1#1
  let main_v7 : IVec S_ 1 := (fun x v => Host.reduce IntOp.andi x v reducesTo_S9600x16_S_d0_1 h_S_) main_v6 main_c_1
  let main_v8 : IVec S_ 1 := andi main_v3 main_v7
  main_v8
-- ==== Kernel.lean ====
abbrev S9600x128 : Shape := ⟨2, ![9600, 128]⟩
abbrev S9600x16 : Shape := ⟨2, ![9600, 16]⟩
abbrev S8x1x1 : Shape := ⟨3, ![8, 1, 1]⟩
abbrev S8x128x16 : Shape := ⟨3, ![8, 128, 16]⟩
abbrev S1200x128 : Shape := ⟨2, ![1200, 128]⟩
abbrev S1200x16 : Shape := ⟨2, ![1200, 16]⟩
abbrev S1x1x1 : Shape := ⟨3, ![1, 1, 1]⟩
abbrev S1x128x16 : Shape := ⟨3, ![1, 128, 16]⟩
abbrev S1x1200x128 : Shape := ⟨3, ![1, 1200, 128]⟩
abbrev S1 : Shape := ⟨1, ![1]⟩
abbrev S128x16 : Shape := ⟨2, ![128, 16]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S9600x128, .f32⟩
  | .hbm, ⟨1, _⟩ => ⟨S9600x16, .f32⟩
  | .hbm, ⟨2, _⟩ => ⟨S8x1x1, .f32⟩
  | .hbm, ⟨3, _⟩ => ⟨S8x128x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S128x16, .f32⟩
  | .hbm, ⟨8, _⟩ => ⟨S128x16, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1200x128, .f32⟩
  | .local _ .vmem, ⟨1, _⟩ => ⟨S1200x128, .f32⟩
  | .local _ .vmem, ⟨2, _⟩ => ⟨S1200x16, .f32⟩
  | .local _ .vmem, ⟨3, _⟩ => ⟨S1200x16, .f32⟩
  | .local _ .vmem, ⟨4, _⟩ => ⟨S1x1x1, .f32⟩
  | .local _ .vmem, ⟨5, _⟩ => ⟨S1x1x1, .f32⟩
  | .local _ .vmem, ⟨6, _⟩ => ⟨S1x128x16, .f32⟩
  | .local _ .vmem, ⟨7, _⟩ => ⟨S1x128x16, .f32⟩
  | _, _ => ⟨S9600x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1200x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1200x128_S1200x128_0_0 : ∀ a, (![0, 0] : Fin 2 → Nat) a + S1200x128.size a ≤ S1200x128.size a
  h_S1200x128 : 0 < S1200x128.numel
  shapeCasts_S1200x128_S1x1200x128 : S1200x128.ShapeCasts S1x1200x128
  reduces_S1x1200x128_S1 : S1x1200x128.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  bitsLt_bf16_f32 : FTy.bits .bf16 < FTy.bits .f32
  inb_S1200x16_S1200x16_0_0 : ∀ a, (![0, 0] : Fin 2 → Nat) a + S1200x16.size a ≤ S1200x16.size a
  h_S1200x16 : 0 < S1200x16.numel
  shapeCasts_S128x16_S1x128x16 : S128x16.ShapeCasts S1x128x16
  inb_S1x128x16_S1x128x16_0_0_0 : ∀ a, (![0, 0, 0] : Fin 3 → Nat) a + S1x128x16.size a ≤ S1x128x16.size a
  h_S1x128x16 : 0 < S1x128x16.numel
  reducesTo_S8x1x1_S_d0_1_2 : S8x1x1.ReducesTo [0, 1, 2] S_
  h_S_ : 0 < S_.numel
  reducesTo_S8x128x16_S128x16_d0 : S8x128x16.ReducesTo [0] S128x16
  reducesTo_S128x16_S_d0_1 : S128x16.ReducesTo [0, 1] S_
  dot_S1200x128_S1200x16_S128x16_0_0_1_1_n_n_wf : DotDims.WF S1200x128 S1200x16 S128x16 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1200x128.size a ≤ S9600x128.size a
  hwx0_0 : ∀ i : grid0.Coords, EltTy.bits .f32 = 32 ∨ (Rect.block (s := S9600x128) S1200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1200x16.size a ≤ S9600x16.size a
  hwx0_1 : ∀ i : grid0.Coords, EltTy.bits .f32 = 32 ∨ (Rect.block (s := S9600x16) S1200x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S8x1x1.size a
  hwx0_2 : ∀ i : grid0.Coords, EltTy.bits .f32 = 32 ∨ (Rect.block (s := S8x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x16.size a ≤ S8x128x16.size a
  hwx0_3 : ∀ i : grid0.Coords, EltTy.bits .f32 = 32 ∨ (Rect.block (s := S8x128x16) S1x128x16.size (cc0_transform_3 i) (hinb0_3 i)).WholeWords (EltTy.packing .f32)

variable [Facts₀]

def dot_S1200x128_S1200x16_S128x16_0_0_1_1_n_n : DotDims S1200x128 S1200x16 S128x16 where
  lhsContracting := [0]
  rhsContracting := [0]
  lhsNonContracting := [1]
  rhsNonContracting := [1]
  lhsBatch := []
  rhsBatch := []
  wf := dot_S1200x128_S1200x16_S128x16_0_0_1_1_n_n_wf

abbrev win0_0 : Pipeline.Window sig grid0 :=
  Pipeline.Window.ofSpec (Memref.whole main_arg0) S1200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1200x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x128x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S9600x128 : Shape := ⟨2, ![9600, 128]⟩
abbrev S9600x16 : Shape := ⟨2, ![9600, 16]⟩
abbrev S_ : Shape := ⟨0, ![]⟩
abbrev S128x16 : Shape := ⟨2, ![128, 16]⟩

abbrev nBuf : Space → Nat
  | .hbm => 10
  | .vmem => 0
  | .smem => 0
  | _ => 0

abbrev bufTy : (tb : Table) → Fin (tcTables nBuf tb) → BufTy
  | .hbm, ⟨0, _⟩ => ⟨S9600x128, .f32⟩
  | .hbm, ⟨1, _⟩ => ⟨S9600x16, .f32⟩
  | .hbm, ⟨2, _⟩ => ⟨S9600x128, .f32⟩
  | .hbm, ⟨3, _⟩ => ⟨S_, .f32⟩
  | .hbm, ⟨4, _⟩ => ⟨S_, .f32⟩
  | .hbm, ⟨5, _⟩ => ⟨S128x16, .f32⟩
  | .hbm, ⟨6, _⟩ => ⟨S128x16, .f32⟩
  | .hbm, ⟨7, _⟩ => ⟨S_, .f32⟩
  | .hbm, ⟨8, _⟩ => ⟨S_, .f32⟩
  | .hbm, ⟨9, _⟩ => ⟨S_, .f32⟩
  | _, _ => ⟨S9600x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  reducesTo_S9600x128_S_d0_1 : S9600x128.ReducesTo [0, 1] S_
  h_S_ : 0 < S_.numel
  reducesTo_S128x16_S_d0_1 : S128x16.ReducesTo [0, 1] S_
  dot_S9600x128_S9600x16_S128x16_0_0_1_1_n_n_wf : DotDims.WF S9600x128 S9600x16 S128x16 [0] [0] [1] [1] [] []

variable [Facts₀]

def dot_S9600x128_S9600x16_S128x16_0_0_1_1_n_n : DotDims S9600x128 S9600x16 S128x16 where
  lhsContracting := [0]
  rhsContracting := [0]
  lhsNonContracting := [1]
  rhsNonContracting := [1]
  lhsBatch := []
  rhsBatch := []
  wf := dot_S9600x128_S9600x16_S128x16_0_0_1_1_n_n_wf

class Facts : Prop extends Facts₀ where

variable [Facts]
-- ==== Proof.LibBlockSum.lean ====
/-
  Regrouping a long sum into consecutive blocks.

  A sum of `B * n` terms `f 0, f 1, …` can be taken block by block: first the `B` terms of block `0`, then the `B`
  terms of block `1`, and so on, block `s` holding the terms `f (B * s + k)` for `k < B`. Only associativity and
  commutativity of the addition are used, so the statements hold in any commutative additive monoid — in particular
  on the extended reals, where no finiteness is needed.
-/
import Idealize.ShloMosaic.Lib.ValueIdx

namespace BlockSum

open Finset

variable {β : Type*} [AddCommMonoid β]

/-- The first `n` blocks of `B` consecutive terms, summed block by block, are the first `B * n` terms. -/
theorem sum_range_blocks (f : ℕ → β) (B : ℕ) :
    ∀ n : ℕ, ∑ s ∈ range n, ∑ k ∈ range B, f (B * s + k) = ∑ K ∈ range (B * n), f K
  | 0 => by rw [Nat.mul_zero, sum_range_zero, sum_range_zero]
  | n + 1 => by
    rw [sum_range_succ, sum_range_blocks f B n, Nat.mul_succ, sum_range_add]

/-- The same with the position inside a block and the position in the whole sum running over `Fin` types: `n`
    blocks of `B` terms make up a sum of `N = B * n` terms. -/
theorem sum_fin_blocks (f : ℕ → β) (B n N : ℕ) (h : N = B * n) :
    ∑ s ∈ range n, ∑ k : Fin B, f (B * s + k.val) = ∑ K : Fin N, f K.val := by
  subst h
  rw [Fin.sum_univ_eq_sum_range (fun K => f K) (B * n), ← sum_range_blocks f B n]
  exact sum_congr rfl fun s _ => Fin.sum_univ_eq_sum_range (fun k => f (B * s + k)) B

end BlockSum
-- ==== Proof.LibIdx3Sum.lean ====
/-
  A sum over the indices of a three-axis array is the triple sum over its coordinates.

  The index set of an array [n0, n1, n2] is in bijection with Fin n0 x Fin n1 x Fin n2, each index being the triple
  of its coordinates; re-indexing a finite sum through a bijection does not change it, and a sum over a product is
  the iterated sum.  Holds in any commutative additive monoid.
-/
import Idealize.ShloMosaic.Lib.ValueIdx

namespace Cert.Lib.Idx3Sum

open Idealize.ShloMosaic Idealize.ShloMosaic.ValueIdx

/-- An index of a three-axis array is the triple of its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a three-axis array, in any commutative additive monoid, is the iterated sum over the
    three coordinates of the summand at the index with those coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Lib.Idx3Sum
-- ==== Proof.BlockSums.lean ====
/-
  The k-means trace loss taken in eight blocks of 1200 rows.

  For a matrix h [9600,128] and a matrix f [9600,16] on the extended reals the loss is
      sum_{n,d} h(n,d)^2  -  sum_{d,k} ( sum_n h(n,d) * f(n,k) )^2 .
  Cut the 9600 rows into 8 consecutive blocks of 1200: row r of block t is row 1200*t + r. Block t contributes the sum of
  the squares of its own 1200 x 128 entries (`blockSq`) and, for each (d,k), the part of the column product taken over its
  own rows (`blockGram`). Adding the eight contributions of a kind gives back the whole sum: every row lies in exactly one
  block, and a finite sum may be taken in any grouping. Only commutativity and associativity of the addition are used, so
  all of this holds on the extended reals with no finiteness assumption.
-/
import Idealize.ShloMosaic.Lib.ValueIdx
import proofs.«148369_j67181878444556_2_alg».proof.Proof.LibBlockSum
import proofs.«148369_j67181878444556_2_alg».proof.Proof.LibIdx3Sum

noncomputable section

open scoped BigOperators

namespace Cert.GramTrace

open Idealize.ShloMosaic Idealize.ShloMosaic.ValueIdx

/-- Row `r` of block `t`: the blocks are consecutive and 1200 rows high. -/
def row (t : Fin 8) (r : Fin 1200) : Fin 9600 :=
  ⟨1200 * t.val + r.val, by have := t.isLt; have := r.isLt; omega⟩

theorem row_val (t : Fin 8) (r : Fin 1200) : (row t r).val = 1200 * t.val + r.val := rfl

/-- A sum over the 9600 rows is the sum over the eight blocks of the sums over each block's 1200 rows. -/
theorem sum_rows_blocks {M : Type*} [AddCommMonoid M] (g : Fin 9600 → M) :
    ∑ t : Fin 8, ∑ r : Fin 1200, g (row t r) = ∑ n : Fin 9600, g n := by
  let e : ℕ → M := fun K => if hK : K < 9600 then g ⟨K, hK⟩ else 0
  have hR : ∑ n : Fin 9600, g n = ∑ K : Fin 9600, e K.val :=
    Finset.sum_congr rfl fun n _ => by simp only [e]; rw [dif_pos n.isLt]
  rw [hR, ← BlockSum.sum_fin_blocks e 1200 8 9600 (by norm_num),
    ← Fin.sum_univ_eq_sum_range (fun s => ∑ k : Fin 1200, e (1200 * s + k.val)) 8]
  refine Finset.sum_congr rfl fun t _ => Finset.sum_congr rfl fun r _ => ?_
  have hlt : 1200 * t.val + r.val < 9600 := by have := t.isLt; have := r.isLt; omega
  simp only [e]
  rw [dif_pos hlt]
  rfl

variable (h : (⟨2, ![9600, 128]⟩ : Shape).Idx → EReal) (f : (⟨2, ![9600, 16]⟩ : Shape).Idx → EReal)

/-- Block `t`'s share of the sum of squares: over its own 1200 x 128 entries. -/
def blockSq (t : Fin 8) : EReal :=
  ∑ i : (⟨2, ![1200, 128]⟩ : Shape).Idx, h (ix2 (row t (i 0)) (i 1)) * h (ix2 (row t (i 0)) (i 1))

/-- Block `t`'s share of the column product at (d,k): over its own 1200 rows. -/
def blockGram (t : Fin 8) (d : Fin 128) (k : Fin 16) : EReal :=
  ∑ r : Fin 1200, h (ix2 (row t r) d) * f (ix2 (row t r) k)

/-- The eight shares of the sum of squares, laid out as an [8,1,1] array. -/
def partialSq : (⟨3, ![8, 1, 1]⟩ : Shape).Idx → EReal := fun j => blockSq h (j 0)

/-- The eight shares of the column products, laid out as an [8,128,16] array. -/
def partialGram : (⟨3, ![8, 128, 16]⟩ : Shape).Idx → EReal := fun j => blockGram h f (j 0) (j 1) (j 2)

theorem partialSq_apply (j : (⟨3, ![8, 1, 1]⟩ : Shape).Idx) : partialSq h j = blockSq h (j 0) := rfl

theorem partialGram_apply (j : (⟨3, ![8, 128, 16]⟩ : Shape).Idx) :
    partialGram h f j = blockGram h f (j 0) (j 1) (j 2) := rfl

/-- The loss computed from per-block shares: the shares of the squares added up, minus the sum over (d,k) of the square of
    the added-up shares of the column product. -/
def lossOfShares (P : (⟨3, ![8, 1, 1]⟩ : Shape).Idx → EReal) (Q : (⟨3, ![8, 128, 16]⟩ : Shape).Idx → EReal) : EReal :=
  (∑ j, P j) - ∑ j : (⟨2, ![128, 16]⟩ : Shape).Idx,
    (∑ t : Fin 8, Q (ix3 t (j 0) (j 1))) * (∑ t : Fin 8, Q (ix3 t (j 0) (j 1)))

/-- The loss computed over all rows at once. -/
def loss : EReal :=
  (∑ n, h n * h n) - ∑ j : (⟨2, ![128, 16]⟩ : Shape).Idx,
    (∑ n : Fin 9600, h (ix2 n (j 0)) * f (ix2 n (j 1))) * (∑ n : Fin 9600, h (ix2 n (j 0)) * f (ix2 n (j 1)))

/-- The eight blocks' sums of squares add up to the sum of squares of the whole matrix. -/
theorem sum_partialSq : ∑ j, partialSq h j = ∑ n, h n * h n := by
  rw [Cert.Lib.Idx3Sum.sum_idx3, sum_idx2 (fun n => h n * h n), ← sum_rows_blocks (fun n => ∑ d : Fin 128, h (ix2 n d) * h (ix2 n d))]
  refine Finset.sum_congr rfl fun t _ => ?_
  rw [Fin.sum_univ_one, Fin.sum_univ_one]
  show blockSq h t = _
  unfold blockSq
  rw [sum_idx2]

/-- The eight blocks' column products add up to the column product over all rows. -/
theorem sum_partialGram (d : Fin 128) (k : Fin 16) :
    ∑ t : Fin 8, partialGram h f (ix3 t d k) = ∑ n : Fin 9600, h (ix2 n d) * f (ix2 n k) :=
  sum_rows_blocks (fun n => h (ix2 n d) * f (ix2 n k))

/-- So the loss from the per-block shares is the loss over all rows. -/
theorem lossOfShares_eq : lossOfShares (partialSq h) (partialGram h f) = loss h f := by
  unfold lossOfShares loss
  rw [sum_partialSq]
  refine congrArg _ (Finset.sum_congr rfl fun j _ => ?_)
  exact congrArg₂ (· * ·) (sum_partialGram h f (j 0) (j 1)) (sum_partialGram h f (j 0) (j 1))

end Cert.GramTrace

end
-- ==== Proof.LibReshapeSum.lean ====
/-
  A reshape keeps the sum of a vector's entries.

  A reshape between two shapes of the same number of entries reads each entry of its operand exactly once (it is
  composition with a bijection of the two index sets), so the sum of the reshaped vector over its index set is the
  sum of the operand over its own — in any commutative monoid, for any two shapes (`sum_shapeCast`). At the
  extended reals a lane reduction `<add>` from the zero word into a shape whose axes all have extent one is the sum
  of every entry of its source; applied to a reshaped vector it is therefore the sum of every entry of the vector
  before the reshape (`multiReduction_add_shapeCast_total`) — the shape a body's `jnp.sum` of a whole block takes
  when it is lowered through a leading unit axis.
-/
import Idealize.ShloMosaic.PureOps.Ideal.Laws

noncomputable section

open scoped BigOperators

namespace Cert.LibReshapeSum

open Idealize.ShloMosaic

/-- A reshape permutes the entries, so it keeps their sum. -/
theorem sum_shapeCast {s t : Shape} {M : Type} [AddCommMonoid M] (v : s.Idx → M) (h : s.ShapeCasts t) :
    ∑ i : t.Idx, shapeCast t v h i = ∑ j : s.Idx, v j :=
  Equiv.sum_comp (Shape.reshapeEquiv h) v

/-- At the extended reals, the `<add>` lane reduction of a reshaped vector into a shape of unit axes is, at its one
    index, the sum of all the entries of the vector before the reshape. -/
theorem multiReduction_add_shapeCast_total {s s' t : Shape} {φ : FTy} {axes : List (Fin s'.rank)} (v : FVec Ideal s φ)
    (hc : s.ShapeCasts s') (acc : BitVec φ.bits) (h : s'.Reduces axes t) (ht : ∀ b, t.size b = 1)
    (hφ : FKind.Formats φ) (hacc : acc = FKind.add.neutral φ hφ) (j : t.Idx) :
    multiReduction .add axes t (shapeCast s' v hc) acc h hφ hacc j = ∑ i : s.Idx, v i :=
  (Ideal.multiReduction_add_total (shapeCast s' v hc) acc h ht hφ hacc j).trans (sum_shapeCast v hc)

end Cert.LibReshapeSum

end
-- ==== Proof.BlockBody.lean ====
/-
  What the kernel body computes from one block, read on the extended reals.

  At a grid point the body holds a block x of 1200 rows of h ([1200,128]) and the matching block y of f ([1200,16]). Its
  first store writes, at the one entry of a [1,1,1] buffer, the sum of the squares of all 1200 x 128 entries of x: the
  squares are laid out under a leading unit axis and summed over the two remaining axes, and a change of layout does not
  change a sum. Its second store writes, at entry (0,d,k) of a [1,128,16] buffer, the product of column d of x with
  column k of y summed over the 1200 rows: a matrix product contracting the row axes of both operands, accumulated from
  zero; the change of float format in front of it is the identity on the extended reals, and the leading unit axis of
  the result is again only layout.
-/
import proofs.«148369_j67181878444556_2_alg».proof.Proof.Gen.KernelIdeal.Skeleton
import proofs.«148369_j67181878444556_2_alg».proof.Proof.LibReshapeSum
import proofs.«148369_j67181878444556_2_alg».proof.Proof.BlockSums
import Idealize.ShloMosaic.Lib.Pipeline.Value
import Idealize.ShloMosaic.Lib.ValueIdx
import Idealize.ShloMosaic.PureOps.Ideal.Laws

noncomputable section

open scoped BigOperators

namespace Cert.KernelIdeal.BlockBody

open Cert.KernelIdeal Cert.KernelIdeal.Gen Idealize.ShloMosaic Idealize.ShloMosaic.ValueIdx
open Cert.GramTrace

/-- A one-entry vector has one index. -/
theorem one_index (p q : S1.Idx) : p = q :=
  funext fun a => by
    match a with
    | ⟨0, ha⟩ =>
      have hp : (p ⟨0, ha⟩).val < 1 := (p ⟨0, ha⟩).isLt
      have hq : (q ⟨0, ha⟩).val < 1 := (q ⟨0, ha⟩).isLt
      exact Fin.ext (by omega)

/-- A one-entry vector laid out as [1,1,1], its entry taken out and spread over [1,1,1] again, holds that entry. -/
theorem unit_entry (v : FVec Ideal S1 .f32) (j : S1x1x1.Idx) (h1 : S1.ShapeCasts S1x1x1)
    (h2 : ∀ a, (![0, 0, 0] : Fin 3 → Nat) a < S1x1x1.size a) (q : S1.Idx) :
    broadcast S1x1x1 (extractAt ![0, 0, 0] (shapeCast S1x1x1 v h1) h2) j = v q := by
  show v _ = v q
  exact congrArg v (one_index _ q)

/-- The first store's value: every entry (there is one) is the sum of the squares of the block's entries. -/
theorem squares_apply (x : Vec Ideal S1200x128 .f32) (j : S1x1x1.Idx) :
    k0_pay1 (F := Ideal) x j = ∑ i : S1200x128.Idx, x i * x i := by
  unfold k0_pay1
  exact (unit_entry _ j _ _ (ix1 0)).trans
    (Cert.LibReshapeSum.multiReduction_add_shapeCast_total (mulf x x) shapeCasts_S1200x128_S1x1200x128 0x00000000#32
      reduces_S1x1200x128_S1 (by decide) (.inl rfl) rfl (ix1 0))

/-! ### The matrix product's operand indices

The product contracts axis 0 of both operands: at the result's entry (d,k) and contraction position r it reads the left
operand at (r,d) and the right operand at (r,k). -/

theorem lhs_row (i : S128x16.Idx) (q : dot_S1200x128_S1200x16_S128x16_0_0_1_1_n_n.contr.Idx) :
    (dot_S1200x128_S1200x16_S128x16_0_0_1_1_n_n.lhsIdx i q 0).val = (q ⟨0, by decide⟩).val :=
  dot_S1200x128_S1200x16_S128x16_0_0_1_1_n_n.lhsIdx_val_of_single rfl i q

theorem lhs_col (i : S128x16.Idx) (q : dot_S1200x128_S1200x16_S128x16_0_0_1_1_n_n.contr.Idx) :
    (dot_S1200x128_S1200x16_S128x16_0_0_1_1_n_n.lhsIdx i q 1).val = (i 0).val := by
  unfold DotDims.lhsIdx
  rw [dif_neg (show ¬(1 : Fin S1200x128.rank) ∈ dot_S1200x128_S1200x16_S128x16_0_0_1_1_n_n.lhsBatch by decide),
    dif_pos (show (1 : Fin S1200x128.rank) ∈ dot_S1200x128_S1200x16_S128x16_0_0_1_1_n_n.lhsNonContracting by decide)]
  rfl

theorem rhs_row (i : S128x16.Idx) (q : dot_S1200x128_S1200x16_S128x16_0_0_1_1_n_n.contr.Idx) :
    (dot_S1200x128_S1200x16_S128x16_0_0_1_1_n_n.rhsIdx i q 0).val = (q ⟨0, by decide⟩).val :=
  dot_S1200x128_S1200x16_S128x16_0_0_1_1_n_n.rhsIdx_val_of_single rfl i q

theorem rhs_col (i : S128x16.Idx) (q : dot_S1200x128_S1200x16_S128x16_0_0_1_1_n_n.contr.Idx) :
    (dot_S1200x128_S1200x16_S128x16_0_0_1_1_n_n.rhsIdx i q 1).val = (i 1).val := by
  unfold DotDims.rhsIdx
  rw [dif_neg (show ¬(1 : Fin S1200x16.rank) ∈ dot_S1200x128_S1200x16_S128x16_0_0_1_1_n_n.rhsBatch by decide),
    dif_pos (show (1 : Fin S1200x16.rank) ∈ dot_S1200x128_S1200x16_S128x16_0_0_1_1_n_n.rhsNonContracting by decide)]
  rfl

/-- The product of the two blocks accumulated from zero, at (d,k): the sum over the 1200 rows of x(r,d) * y(r,k). -/
theorem product_apply (x : FVec Ideal S1200x128 .bf16) (y : FVec Ideal S1200x16 .bf16) (d : Fin 128) (k : Fin 16) :
    matmul dot_S1200x128_S1200x16_S128x16_0_0_1_1_n_n none x y (constant S128x16 .f32 0x00000000#32) (ix2 d k)
      = ∑ r : Fin 1200, x (ix2 r d) * y (ix2 r k) := by
  simp only [matmul]
  rw [Ideal.matmul_constant_zero_apply,
    ← Equiv.sum_comp (contrEquiv1 dot_S1200x128_S1200x16_S128x16_0_0_1_1_n_n 1200 rfl rfl).symm]
  refine Finset.sum_congr rfl fun r _ => ?_
  have hr := contrEquiv1_symm_val dot_S1200x128_S1200x16_S128x16_0_0_1_1_n_n 1200 rfl rfl r
  have el : dot_S1200x128_S1200x16_S128x16_0_0_1_1_n_n.lhsIdx (ix2 d k)
      ((contrEquiv1 dot_S1200x128_S1200x16_S128x16_0_0_1_1_n_n 1200 rfl rfl).symm r) = ix2 r d :=
    funext fun a => Fin.ext (by
      match a with
      | ⟨0, _⟩ => exact (lhs_row _ _).trans hr
      | ⟨1, _⟩ => exact lhs_col _ _)
  have er : dot_S1200x128_S1200x16_S128x16_0_0_1_1_n_n.rhsIdx (ix2 d k)
      ((contrEquiv1 dot_S1200x128_S1200x16_S128x16_0_0_1_1_n_n 1200 rfl rfl).symm r) = ix2 r k :=
    funext fun a => Fin.ext (by
      match a with
      | ⟨0, _⟩ => exact (rhs_row _ _).trans hr
      | ⟨1, _⟩ => exact rhs_col _ _)
  rw [el, er]

/-- A [128,16] matrix laid out under a leading unit axis reads, at (0,d,k), the matrix at (d,k). -/
theorem add_unit_entry (v : FVec Ideal S128x16 .f32) (h : S128x16.ShapeCasts S1x128x16) (u : Fin 1) (d : Fin 128) (k : Fin 16) :
    shapeCast S1x128x16 v h (ix3 u d k) = v (ix2 d k) := by
  refine (shapeCast_addUnit_apply ![128, 16] v h (ix3 u d k)).trans ?_
  exact congrArg v (funext fun a => by match a with | ⟨0, _⟩ => rfl | ⟨1, _⟩ => rfl)

/-- The second store's value at (0,d,k): column d of the block of h times column k of the block of f, over the rows. -/
theorem columns_apply (x : Vec Ideal S1200x128 .f32) (y : Vec Ideal S1200x16 .f32) (u : Fin 1) (d : Fin 128) (k : Fin 16) :
    k0_pay2 (F := Ideal) x y (ix3 u d k) = ∑ r : Fin 1200, x (ix2 r d) * y (ix2 r k) := by
  unfold k0_pay2
  exact (add_unit_entry _ _ u d k).trans
    (product_apply (truncf .bf16 x bitsLt_bf16_f32) (truncf .bf16 y bitsLt_bf16_f32) d k)

/-! ### The two stores when the loaded blocks are block T of the arguments -/

/-- If x holds rows 1200*T .. 1200*T + 1199 of h, the first store writes block T's sum of squares. -/
theorem squares_of_block (h : S9600x128.Idx → EReal) (x : Vec Ideal S1200x128 .f32) (T : Fin 8)
    (hx : ∀ i : S1200x128.Idx, x i = h (ix2 (row T (i 0)) (i 1))) (j : S1x1x1.Idx) :
    k0_pay1 (F := Ideal) x j = blockSq h T := by
  refine (squares_apply x j).trans ?_
  unfold blockSq
  exact Finset.sum_congr rfl fun i _ => congrArg₂ (· * ·) (hx i) (hx i)

/-- If x and y hold rows 1200*T .. 1200*T + 1199 of h and of f, the second store writes, at (0,d,k), block T's share of
    the product of column d of h with column k of f. -/
theorem columns_of_blocks (h : S9600x128.Idx → EReal) (f : S9600x16.Idx → EReal)
    (x : Vec Ideal S1200x128 .f32) (y : Vec Ideal S1200x16 .f32) (T : Fin 8)
    (hx : ∀ (r : Fin 1200) (d : Fin 128), x (ix2 r d) = h (ix2 (row T r) d))
    (hy : ∀ (r : Fin 1200) (k : Fin 16), y (ix2 r k) = f (ix2 (row T r) k))
    (u : Fin 1) (d : Fin 128) (k : Fin 16) :
    k0_pay2 (F := Ideal) x y (ix3 u d k) = blockGram h f T d k := by
  refine (columns_apply x y u d k).trans ?_
  unfold blockGram
  exact Finset.sum_congr rfl fun r _ => congrArg₂ (· * ·) (hx r d) (hy r k)

end Cert.KernelIdeal.BlockBody

end
-- ==== Proof.OutputArrays.lean ====
/-
  The two arrays the kernel leaves, as whole functions of its arguments.

  The grid has eight points. At point t the kernel is handed rows 1200*t .. 1200*t + 1199 of h and of f, and writes back
  entry (t,0,0) of an [8,1,1] array and the [128,16] slab t of an [8,128,16] array. By what the body computes from one
  block, entry (t,0,0) is block t's sum of squares and entry (t,d,k) is block t's share of the product of column d of h
  with column k of f. The eight written blocks are disjoint and fill each array, so after the last point the first array
  is the array of the eight sums of squares and the second the array of the eight partial column products.
-/
import proofs.«148369_j67181878444556_2_alg».proof.Proof.Gen.KernelIdeal.Frame
import proofs.«148369_j67181878444556_2_alg».proof.Proof.BlockSums
import proofs.«148369_j67181878444556_2_alg».proof.Proof.BlockBody
import Idealize.ShloMosaic.Lib.Pipeline.Value

noncomputable section

open scoped BigOperators

namespace Cert.KernelIdeal.OutputArrays

open Cert.KernelIdeal Cert.KernelIdeal.Gen Idealize.ShloMosaic Idealize.ShloMosaic.TcCoe Idealize.SL.Sem
open Idealize.ShloMosaic.ValueIdx
open Idealize.ShloMosaic.Pipeline (Dat)
open Cert.GramTrace Cert.KernelIdeal.BlockBody

variable (m : (ℓ : Loc nD τ sig) → Buf (Elt Ideal) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl

/-- Where each window's block sits at grid point t: the inputs' blocks are the t-th groups of 1200 rows, the outputs'
    blocks are entry t and slab t. -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Entry (r,d) of the block of h at point t is h at row 1200*t + r, column d. -/
theorem hblock_apply (c : Dev nD) (t : Fin cfg0.N) (i : S1200x128.Idx) (n : S9600x128.Idx)
    (h0 : (n 0).val = 1200 * t.val + (i 0).val) (h1 : (n 1).val = (i 1).val) :
    (iblk m c 0 t : Vec Ideal S1200x128 .f32) i = (V m c main_arg0 : S9600x128.Idx → EReal) n := by
  obtain ⟨e0, e1, -⟩ := block_positions t
  unfold iblk
  rw [View.read_apply]
  show V m c main_arg0 _ = V m c main_arg0 _
  congr 1
  funext a
  apply Fin.ext
  match a with
  | ⟨0, _⟩ => show win0_0.index t (0 : Fin 2) * 1200 + 1 * (i 0).val = (n 0).val; rw [e0, h0]; omega
  | ⟨1, _⟩ => show win0_0.index t (1 : Fin 2) * 128 + 1 * (i 1).val = (n 1).val; rw [e1, h1]; omega

/-- Entry (r,k) of the block of f at point t is f at row 1200*t + r, column k. -/
theorem fblock_apply (c : Dev nD) (t : Fin cfg0.N) (i : S1200x16.Idx) (n : S9600x16.Idx)
    (h0 : (n 0).val = 1200 * t.val + (i 0).val) (h1 : (n 1).val = (i 1).val) :
    (iblk m c 1 t : Vec Ideal S1200x16 .f32) i = (V m c main_arg1 : S9600x16.Idx → EReal) n := by
  obtain ⟨-, -, e0, e1, -⟩ := block_positions t
  unfold iblk
  rw [View.read_apply]
  show V m c main_arg1 _ = V m c main_arg1 _
  congr 1
  funext a
  apply Fin.ext
  match a with
  | ⟨0, _⟩ => show win0_1.index t (0 : Fin 2) * 1200 + 1 * (i 0).val = (n 0).val; rw [e0, h0]; omega
  | ⟨1, _⟩ => show win0_1.index t (1 : Fin 2) * 16 + 1 * (i 1).val = (n 1).val; rw [e1, h1]; omega

/-! ## The array of the eight sums of squares -/

/-- A [1,1,1] buffer whose entries are the matching entries of an [8,1,1] array G is, written back at point t, block t
    of G. (Stated for any buffer contents and any G, so that nothing about how they are computed is opened.) -/
theorem block2_of_entries (t : Fin cfg0.N) (p : FVec Ideal S1x1x1 .f32) (G : S8x1x1.Idx → EReal)
    (hpG : ∀ j : S1x1x1.Idx, p j = G (((cfg0.win 2).blk t).view.emb j)) :
    (cfg0.win 2).cut (grid0.coords t) p = ((cfg0.win 2).blk t).view.read (Elt Ideal) G := by
  funext j
  exact hpG j

/-- What point t writes back to the first output is block t of the array of the blocks' sums of squares. -/
theorem squares_written (c : Dev nD) (t : Fin cfg0.N) :
    (dats m 0 c).flushed 2 t
      = ((cfg0.win 2).blk t).view.read (Elt Ideal) (partialSq (V m c main_arg0 : S9600x128.Idx → EReal)) := by
  show (cfg0.win 2).cut (grid0.coords t) ((dats m 0 c).after 2 t) = _
  rw [after0_2]
  unfold out0_2
  rw [View.canon_unit_zero zeros3]
  simp only [View.ld_unit_zero (S := S1200x128) zeros2]
  obtain ⟨-, -, -, -, e0, -⟩ := block_positions t
  refine block2_of_entries t _ _ fun j => ?_
  have hj : (j 0).val < 1 := (j 0).isLt
  have hT : ((((cfg0.win 2).blk t).view.emb j) 0).val = t.val := by
    show win0_2.index t (0 : Fin 3) * 1 + 1 * (j 0).val = t.val
    rw [e0]; omega
  refine (squares_of_block (V m c main_arg0 : S9600x128.Idx → EReal) (iblk m c 0 t)
    ((((cfg0.win 2).blk t).view.emb j) 0) (fun i => ?_) j).trans (partialSq_apply _ _).symm
  exact hblock_apply m c t i (ix2 (row ((((cfg0.win 2).blk t).view.emb j) 0) (i 0)) (i 1))
    (by show 1200 * ((((cfg0.win 2).blk t).view.emb j) 0).val + (i 0).val = _; rw [hT]) rfl

/-- An index of the first output lies in point t's block iff each coordinate is in the block's range. -/
theorem mem_block2 (t : Fin cfg0.N) (i : S8x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0_0).slice (win0_2.rect t)).set ↔ _
  rw [View.set_slice_whole, Rect.mem_set_unit]
  exact Iff.rfl

/-- Every entry of the first output is written by some point: entry (t,0,0) by point t. -/
theorem covered2 (i : S8x1x1.Idx) :
    ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 1 := (i 2).isLt
  let t : Fin cfg0.N := ⟨(i 0).val, by show (i 0).val < grid0.N; rw [N_0]; exact h0⟩
  have ht : t.val = (i 0).val := rfl
  obtain ⟨-, -, -, -, e0, e1, e2, -⟩ := block_positions t
  refine ⟨t, flush0_2 t, ?_⟩
  rw [mem_block2]
  intro a
  match a with
  | ⟨0, _⟩ => show win0_2.index t (0 : Fin 3) * 1 ≤ (i 0).val ∧ (i 0).val < win0_2.index t (0 : Fin 3) * 1 + 1; rw [e0, ht]; omega
  | ⟨1, _⟩ => show win0_2.index t (1 : Fin 3) * 1 ≤ (i 1).val ∧ (i 1).val < win0_2.index t (1 : Fin 3) * 1 + 1; rw [e1]; omega
  | ⟨2, _⟩ => show win0_2.index t (2 : Fin 3) * 1 ≤ (i 2).val ∧ (i 2).val < win0_2.index t (2 : Fin 3) * 1 + 1; rw [e2]; omega

/-- After the last point the first output is the array of the eight blocks' sums of squares. -/
theorem squares_array (c : Dev nD) :
    (dats m 0 c).arrAt 2 cfg0.N = partialSq (V m c main_arg0 : S9600x128.Idx → EReal) :=
  (dats m 0 c).arrAt_eq_of_cover 2 (partialSq (V m c main_arg0 : S9600x128.Idx → EReal))
    (fun t _ => squares_written m c t) covered2

/-! ## The array of the eight partial column products -/

/-- A [1,128,16] buffer whose entries are the matching entries of an [8,128,16] array G is, written back at point t,
    slab t of G. -/
theorem block3_of_entries (t : Fin cfg0.N) (p : FVec Ideal S1x128x16 .f32) (G : S8x128x16.Idx → EReal)
    (hpG : ∀ j : S1x128x16.Idx, p j = G (((cfg0.win 3).blk t).view.emb j)) :
    (cfg0.win 3).cut (grid0.coords t) p = ((cfg0.win 3).blk t).view.read (Elt Ideal) G := by
  funext j
  exact hpG j

/-- What point t writes back to the second output is slab t of the array of the blocks' partial column products. -/
theorem products_written (c : Dev nD) (t : Fin cfg0.N) :
    (dats m 0 c).flushed 3 t
      = ((cfg0.win 3).blk t).view.read (Elt Ideal)
          (partialGram (V m c main_arg0 : S9600x128.Idx → EReal) (V m c main_arg1 : S9600x16.Idx → EReal)) := by
  show (cfg0.win 3).cut (grid0.coords t) ((dats m 0 c).after 3 t) = _
  rw [after0_3]
  unfold out0_3
  rw [View.canon_unit_zero zeros3]
  simp only [View.ld_unit_zero (S := S1200x128) zeros2, View.ld_unit_zero (S := S1200x16) zeros2]
  obtain ⟨-, -, -, -, -, -, -, e0, e1, e2⟩ := block_positions t
  refine block3_of_entries t _ _ fun j => ?_
  have hj : (j 0).val < 1 := (j 0).isLt
  have hT : ((((cfg0.win 3).blk t).view.emb j) 0).val = t.val := by
    show win0_3.index t (0 : Fin 3) * 1 + 1 * (j 0).val = t.val
    rw [e0]; omega
  have hD : (j 1 : Fin 128) = (((cfg0.win 3).blk t).view.emb j) 1 := Fin.ext (by
    show (j 1).val = win0_3.index t (1 : Fin 3) * 128 + 1 * (j 1).val
    rw [e1]; omega)
  have hK : (j 2 : Fin 16) = (((cfg0.win 3).blk t).view.emb j) 2 := Fin.ext (by
    show (j 2).val = win0_3.index t (2 : Fin 3) * 16 + 1 * (j 2).val
    rw [e2]; omega)
  refine ((congrArg (k0_pay2 (F := Ideal) (iblk m c 0 t) (iblk m c 1 t)) (eq_ix3 j)).trans
    (columns_of_blocks (V m c main_arg0 : S9600x128.Idx → EReal) (V m c main_arg1 : S9600x16.Idx → EReal)
      (iblk m c 0 t) (iblk m c 1 t) ((((cfg0.win 3).blk t).view.emb j) 0) (fun r d => ?_) (fun r k => ?_) (j 0) (j 1) (j 2))).trans
    ((congrArg₂ (blockGram (V m c main_arg0 : S9600x128.Idx → EReal) (V m c main_arg1 : S9600x16.Idx → EReal)
      ((((cfg0.win 3).blk t).view.emb j) 0)) hD hK).trans (partialGram_apply _ _ _).symm)
  · exact hblock_apply m c t (ix2 r d) (ix2 (row ((((cfg0.win 3).blk t).view.emb j) 0) r) d)
      (by show 1200 * ((((cfg0.win 3).blk t).view.emb j) 0).val + r.val = _; rw [hT]) rfl
  · exact fblock_apply m c t (ix2 r k) (ix2 (row ((((cfg0.win 3).blk t).view.emb j) 0) r) k)
      (by show 1200 * ((((cfg0.win 3).blk t).view.emb j) 0).val + r.val = _; rw [hT]) rfl

/-- An index of the second output lies in point t's block iff each coordinate is in the block's range. -/
theorem mem_block3 (t : Fin cfg0.N) (i : S8x128x16.Idx) :
    i ∈ ((cfg0.win 3).blk t).view.set ↔ ∀ a : Fin 3, win0_3.index t a * S1x128x16.size a ≤ (i a).val ∧ (i a).val < win0_3.index t a * S1x128x16.size a + S1x128x16.size a := by
  show i ∈ ((View.whole main_v0_1).slice (win0_3.rect t)).set ↔ _
  rw [View.set_slice_whole, Rect.mem_set_unit]
  exact Iff.rfl

/-- Every entry of the second output is written by some point: slab t by point t. -/
theorem covered3 (i : S8x128x16.Idx) :
    ∃ t : Fin cfg0.N, (cfg0.win 3).flush t = true ∧ i ∈ ((cfg0.win 3).blk t).view.set := by
  have h0 : (i 0).val < 8 := (i 0).isLt
  have h1 : (i 1).val < 128 := (i 1).isLt
  have h2 : (i 2).val < 16 := (i 2).isLt
  let t : Fin cfg0.N := ⟨(i 0).val, by show (i 0).val < grid0.N; rw [N_0]; exact h0⟩
  have ht : t.val = (i 0).val := rfl
  obtain ⟨-, -, -, -, -, -, -, e0, e1, e2⟩ := block_positions t
  refine ⟨t, flush0_3 t, ?_⟩
  rw [mem_block3]
  intro a
  match a with
  | ⟨0, _⟩ => show win0_3.index t (0 : Fin 3) * 1 ≤ (i 0).val ∧ (i 0).val < win0_3.index t (0 : Fin 3) * 1 + 1; rw [e0, ht]; omega
  | ⟨1, _⟩ => show win0_3.index t (1 : Fin 3) * 128 ≤ (i 1).val ∧ (i 1).val < win0_3.index t (1 : Fin 3) * 128 + 128; rw [e1]; omega
  | ⟨2, _⟩ => show win0_3.index t (2 : Fin 3) * 16 ≤ (i 2).val ∧ (i 2).val < win0_3.index t (2 : Fin 3) * 16 + 16; rw [e2]; omega

/-- After the last point the second output is the array of the eight blocks' partial column products. -/
theorem products_array (c : Dev nD) :
    (dats m 0 c).arrAt 3 cfg0.N
      = partialGram (V m c main_arg0 : S9600x128.Idx → EReal) (V m c main_arg1 : S9600x16.Idx → EReal) :=
  (dats m 0 c).arrAt_eq_of_cover 3
    (partialGram (V m c main_arg0 : S9600x128.Idx → EReal) (V m c main_arg1 : S9600x16.Idx → EReal))
    (fun t _ => products_written m c t) covered3

end Cert.KernelIdeal.OutputArrays

end
-- ==== Proof.HostTail.lean ====
/-
  The host lines after the kernel.

  After the kernel has left its two arrays — P [8,1,1], one sum of squares per block, and Q [8,128,16], one partial column
  product per block — the program adds up the eight entries of P, adds the eight slabs of Q into one [128,16] matrix,
  squares that matrix entry by entry, adds up its entries, and subtracts the second total from the first. Each of these sums
  starts from the zero word, which is the extended real 0, so on the extended reals the result is
      sum_j P(j)  -  sum_{d,k} ( sum_t Q(t,d,k) )^2 .
-/
import proofs.«148369_j67181878444556_2_alg».proof.Proof.Gen.KernelIdeal.Frame
import proofs.«148369_j67181878444556_2_alg».proof.Proof.BlockSums
import Idealize.ShloMosaic.Lib.Pipeline.Value
import Idealize.ShloMosaic.Lib.StableHlo.Run
import Idealize.ShloMosaic.Lib.ValueIdx
import Idealize.ShloMosaic.PureOps.Ideal.Laws

noncomputable section

open scoped BigOperators

namespace Cert.KernelIdeal.HostTail

open Cert.KernelIdeal Cert.KernelIdeal.Gen Idealize.ShloMosaic Idealize.ShloMosaic.TcCoe Idealize.SL.Sem Idealize.ShloMosaic.StableHlo
open Idealize.ShloMosaic.ValueIdx
open Cert.GramTrace

variable (m : (ℓ : Loc nD τ sig) → Buf (Elt Ideal) ℓ)

/-- The host lines after the kernel, as one function of the two arrays the kernel leaves. -/
def tail (P : FVec Ideal S8x1x1 .f32) (Q : FVec Ideal S8x128x16 .f32) : FVec Ideal S_ .f32 :=
  subf (Host.reduceAdd (F := Ideal) P (constant (F := Ideal) S_ .f32 0x00000000#32) reducesTo_S8x1x1_S_d0_1_2 h_S_)
    (Host.reduceAdd (F := Ideal)
      (mulf (Host.reduceAdd (F := Ideal) Q (constant (F := Ideal) S_ .f32 0x00000000#32) reducesTo_S8x128x16_S128x16_d0 h_S_)
        (Host.reduceAdd (F := Ideal) Q (constant (F := Ideal) S_ .f32 0x00000000#32) reducesTo_S8x128x16_S128x16_d0 h_S_))
      (constant (F := Ideal) S_ .f32 0x00000000#32) reducesTo_S128x16_S_d0_1 h_S_)

/-- What the program's result buffer holds after the host lines: `tail` of the two arrays as the kernel left them. -/
theorem tail_after (c : Dev nD) :
    Pipeline.afterTail₀ cfgs (dats m) 0 (V0 m) [hostOps1] c main_v5
      = tail ((dats m 0 c).arrAt 2 cfg0.N) ((dats m 0 c).arrAt 3 cfg0.N) := by
  unfold Pipeline.afterTail₀
  show StableHlo.after hostOps1 _ (Proc.devRef .tc main_v5) = _
  after_results
  have e2 : Pipeline.withArrays (cfgs 0).spec c (V0 m c) (fun w => (dats m 0 c).arrAt w (cfgs 0).N) (Proc.devRef .tc main_v0_0)
      = (dats m 0 c).arrAt 2 cfg0.N :=
    Pipeline.withArrays_arr spec0 launch0.win.arr_inj c (V0 m c) (fun w => (dats m 0 c).arrAt w cfg0.N) 2
  have e3 : Pipeline.withArrays (cfgs 0).spec c (V0 m c) (fun w => (dats m 0 c).arrAt w (cfgs 0).N) (Proc.devRef .tc main_v0_1)
      = (dats m 0 c).arrAt 3 cfg0.N :=
    Pipeline.withArrays_arr spec0 launch0.win.arr_inj c (V0 m c) (fun w => (dats m 0 c).arrAt w cfg0.N) 3
  rw [e2, e3]
  rfl

/-! ## The host sums read on the extended reals -/

/-- The eight entries of the first array added up from zero. -/
theorem total_shares (P : FVec Ideal S8x1x1 .f32) (j : S_.Idx) :
    Host.reduceAdd (F := Ideal) P (constant (F := Ideal) S_ .f32 0x00000000#32) reducesTo_S8x1x1_S_d0_1_2 h_S_ j
      = ∑ i : S8x1x1.Idx, P i := by
  simp only [Host.reduceAdd, Ideal.hostReduceAdd_def]
  refine (Ideal.hostReduceAdd_total reducesTo_S8x1x1_S_d0_1_2 (fun b => b.elim0) P _ j).trans ?_
  show Ideal.ofBits .f32 0x00000000#32 + _ = _
  rw [Ideal.ofBits_zero_f32, zero_add]

/-- The entries of a [128,16] matrix added up from zero. -/
theorem total_matrix (X : FVec Ideal S128x16 .f32) (j : S_.Idx) :
    Host.reduceAdd (F := Ideal) X (constant (F := Ideal) S_ .f32 0x00000000#32) reducesTo_S128x16_S_d0_1 h_S_ j
      = ∑ i : S128x16.Idx, X i := by
  simp only [Host.reduceAdd, Ideal.hostReduceAdd_def]
  refine (Ideal.hostReduceAdd_total reducesTo_S128x16_S_d0_1 (fun b => b.elim0) X _ j).trans ?_
  show Ideal.ofBits .f32 0x00000000#32 + _ = _
  rw [Ideal.ofBits_zero_f32, zero_add]

/-- The eight slabs of the second array added up from zero, at (d,k). -/
theorem slabs_sum (Q : FVec Ideal S8x128x16 .f32) (d : Fin 128) (k : Fin 16) :
    Host.reduceAdd (F := Ideal) Q (constant (F := Ideal) S_ .f32 0x00000000#32) reducesTo_S8x128x16_S128x16_d0 h_S_ (ix2 d k)
      = ∑ t : Fin 8, Q (ix3 t d k) := by
  have hR : S8x128x16.Reduces [0] S128x16 := by decide
  simp only [Host.reduceAdd, Ideal.hostReduceAdd_def]
  refine (Ideal.hostReduceAdd_single reducesTo_S8x128x16_S128x16_d0 hR Q _ (ix2 d k)).trans ?_
  show Ideal.ofBits .f32 0x00000000#32 + ∑ t : Fin 8, Q (hR.lift (ix2 d k) t) = _
  rw [Ideal.ofBits_zero_f32, zero_add]
  refine Finset.sum_congr rfl fun t _ => congrArg Q ?_
  funext a
  apply Fin.ext
  match a with
  | ⟨0, _⟩ => rfl
  | ⟨1, _⟩ => rfl
  | ⟨2, _⟩ => rfl

/-- The host lines compute the loss from the per-block shares. -/
theorem tail_apply (P : FVec Ideal S8x1x1 .f32) (Q : FVec Ideal S8x128x16 .f32) (j : S_.Idx) :
    tail P Q j = lossOfShares P Q := by
  unfold tail lossOfShares
  rw [subf_apply, total_shares, total_matrix]
  refine congrArg _ (Finset.sum_congr rfl fun i _ => ?_)
  have e : Host.reduceAdd (F := Ideal) Q (constant (F := Ideal) S_ .f32 0x00000000#32) reducesTo_S8x128x16_S128x16_d0 h_S_ i
      = ∑ t : Fin 8, Q (ix3 t (i 0) (i 1)) :=
    (congrArg _ (eq_ix2 i)).trans (slabs_sum Q (i 0) (i 1))
  exact congrArg₂ (· * ·) e e

end Cert.KernelIdeal.HostTail

end
-- ==== Proof.KernelLoss.lean ====
/-
  The kernel program's result: the loss over all rows.

  The kernel leaves the array of the eight blocks' sums of squares and the array of the eight blocks' partial column
  products; the host lines after it compute the loss from such per-block shares; and the shares of the eight blocks of 1200
  rows add up to the sums over all 9600 rows. So the program's result buffer ends holding the loss of its two arguments.
-/
import proofs.«148369_j67181878444556_2_alg».proof.Proof.OutputArrays
import proofs.«148369_j67181878444556_2_alg».proof.Proof.HostTail

noncomputable section

open scoped BigOperators

namespace Cert.KernelIdeal.Loss

open Cert.KernelIdeal Cert.KernelIdeal.Gen Idealize.ShloMosaic Idealize.ShloMosaic.TcCoe Idealize.SL.Sem
open Cert.GramTrace Cert.KernelIdeal.OutputArrays Cert.KernelIdeal.HostTail

variable (m : (ℓ : Loc nD τ sig) → Buf (Elt Ideal) ℓ) (ρ : Dev nD → PrngReg)

/-- The value every entry (there is one) of the result holds: the loss of the two argument arrays as launched. -/
abbrev value (c : Dev nD) : Buf (Elt Ideal) ((c : Thread nD τ).loc main_v5) :=
  fun _ => loss (m ((c : Thread nD τ).loc main_arg0) : S9600x128.Idx → EReal) (m ((c : Thread nD τ).loc main_arg1) : S9600x16.Idx → EReal)

/-- After the host lines the result buffer holds the loss of the arguments. -/
theorem result (c : Dev nD) :
    Pipeline.afterTail₀ cfgs (dats m) 0 (V0 m) [hostOps1] c main_v5 = value m c := by
  rw [tail_after, squares_array, products_array]
  funext j
  refine (tail_apply _ _ j).trans ((lossOfShares_eq _ _).trans ?_)
  exact congrArg₂ loss (V_main_arg0 m c) (V_main_arg1 m c)

/-- Every weakly fair execution of the program terminates with the result buffer at the loss of the arguments and the
    arguments unchanged. -/
theorem run : θ_run defs (onTc (τ := τ) (main (F := Ideal))) ⟨m, fun _ => 0, ρ⟩ fun r => ∀ c : Dev nD,
      r.2.mem ((c : Thread nD τ).loc main_v5) = value m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v5 (Pipeline.mem_restRefs_of main_v5 rfl (by decide))).trans (result m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Loss

end
-- ==== Proof.ReferenceLoss.lean ====
/-
  The reference program's result, read on the extended reals.

  The reference squares h entry by entry and adds up all 9600 x 128 squares from zero; it forms the [128,16] matrix of the
  products of the columns of h with the columns of f over all 9600 rows, squares it entry by entry and adds up its entries
  from zero; and it subtracts the second total from the first. Read index by index this is the loss over all rows.
-/
import proofs.«148369_j67181878444556_2_alg».proof.Proof.Gen.ReferenceIdeal.Read
import proofs.«148369_j67181878444556_2_alg».proof.Proof.BlockSums

noncomputable section

open scoped BigOperators

namespace Cert.ReferenceIdeal.Loss

open Cert.ReferenceIdeal Cert.ReferenceIdeal.Read Idealize.ShloMosaic Idealize.ShloMosaic.ValueIdx
open Cert.GramTrace

/-- The reference's matrix product at (d,k): column d of h times column k of f, over all rows. -/
theorem column_product (h : (⟨S9600x128, .f32⟩ : BufTy).Contents (Elt Ideal)) (f : (⟨S9600x16, .f32⟩ : BufTy).Contents (Elt Ideal))
    (j : S128x16.Idx) :
    val_main_v2 (F := Ideal) h f j = ∑ n : Fin 9600, h (ix2 n (j 0)) * f (ix2 n (j 1)) := by
  rw [val_main_v2_apply]
  refine Finset.sum_congr rfl fun n _ => ?_
  have el : lidx_main_v2 j n = ix2 n (j 0) := funext fun a => by match a with | ⟨0, _⟩ => rfl | ⟨1, _⟩ => rfl
  have er : ridx_main_v2 j n = ix2 n (j 1) := funext fun a => by match a with | ⟨0, _⟩ => rfl | ⟨1, _⟩ => rfl
  exact congrArg₂ (· * ·) (congrArg h el) (congrArg f er)

/-- The reference's result is the loss over all rows. -/
theorem result_apply (h : (⟨S9600x128, .f32⟩ : BufTy).Contents (Elt Ideal)) (f : (⟨S9600x16, .f32⟩ : BufTy).Contents (Elt Ideal))
    (j : S_.Idx) :
    val_main_v5 (F := Ideal) h f j = loss h f := by
  rw [val_main_v5_apply, val_main_v1_apply, val_main_v4_apply]
  show (Ideal.ofBits .f32 0x00000000#32 + ∑ n : S9600x128.Idx, h n * h n)
      - (Ideal.ofBits .f32 0x00000000#32 + ∑ i : S128x16.Idx, val_main_v2 (F := Ideal) h f i * val_main_v2 (F := Ideal) h f i)
    = loss h f
  rw [Ideal.ofBits_zero_f32, zero_add, zero_add]
  unfold loss
  refine congrArg _ (Finset.sum_congr rfl fun i _ => ?_)
  exact congrArg₂ (· * ·) (column_product h f i) (column_product h f i)

end Cert.ReferenceIdeal.Loss

end
-- ==== Proof.lean ====
/-
  The certificate of the k-means trace loss kernel against its reference.

  Both programs compute, from h [9600,128] and f [9600,16],
      sum_{n,d} h(n,d)^2  -  sum_{d,k} ( sum_n h(n,d) * f(n,k) )^2 .
  The reference takes each sum over all 9600 rows at once. The kernel cuts the rows into eight blocks of 1200, has each
  grid point produce its own block's sum of squares and its own block's share of every column product, and lets the host
  add the eight shares of each kind before squaring and subtracting. On the extended reals the two are the same number:
  the rounding to a shorter float format in front of the kernel's matrix product is the identity there, a matrix product
  accumulated from zero is the plain sum of products, and a finite sum may be taken in any grouping — only commutativity
  and associativity of the addition are used, so the precondition (finite inputs) is never opened.

  The three frames are the generated ones (for the reference: its generated run with the result dropped); the kernel's
  idealization rewrote nothing, so there is nothing to preserve; the algebraic claim sets the kernel program's run
  (Proof/KernelLoss.lean) beside the reference's generated run read index by index (Proof/ReferenceLoss.lean), both at the
  loss of the argument arrays (Proof/BlockSums.lean).
-/
import proofs.«148369_j67181878444556_2_alg».proof.Defs
import proofs.«148369_j67181878444556_2_alg».proof.Proof.Gen.Kernel
import proofs.«148369_j67181878444556_2_alg».proof.Proof.Gen.Kernel.Skeleton
import proofs.«148369_j67181878444556_2_alg».proof.Proof.Gen.Kernel.Launch
import proofs.«148369_j67181878444556_2_alg».proof.Proof.Gen.Kernel.Points
import proofs.«148369_j67181878444556_2_alg».proof.Proof.Gen.Kernel.Frame
import proofs.«148369_j67181878444556_2_alg».proof.Proof.Gen.KernelIdeal
import proofs.«148369_j67181878444556_2_alg».proof.Proof.Gen.KernelIdeal.Skeleton
import proofs.«148369_j67181878444556_2_alg».proof.Proof.Gen.KernelIdeal.Launch
import proofs.«148369_j67181878444556_2_alg».proof.Proof.Gen.KernelIdeal.Points
import proofs.«148369_j67181878444556_2_alg».proof.Proof.Gen.KernelIdeal.Frame
import proofs.«148369_j67181878444556_2_alg».proof.Proof.Gen.ReferenceIdeal
import proofs.«148369_j67181878444556_2_alg».proof.Proof.Gen.ReferenceIdeal.Run
import proofs.«148369_j67181878444556_2_alg».proof.Proof.Gen.ReferenceIdeal.Read
import proofs.«148369_j67181878444556_2_alg».proof.Proof.Gen.Pre_finite_inputs
import proofs.«148369_j67181878444556_2_alg».proof.Proof.KernelLoss
import proofs.«148369_j67181878444556_2_alg».proof.Proof.ReferenceLoss
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with their one result entry at the loss of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Loss.value m c, Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, (hagree c).1, (hagree c).2]
  funext j
  exact Cert.ReferenceIdeal.Loss.result_apply _ _ j

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
